-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 111
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S100000x64, .f32⟩
  | _ => ⟨S100000x256, .f32⟩

abbrev hbmTy0_1 (i : Nat) : BufTy := match i % 128 with
  | 0 => ⟨S100000, .i32⟩
  | 1 => ⟨S1700000, .i32⟩
  | 2 => ⟨S1700000, .i32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_call3_v0 : Ref sig .tc := ⟨.hbm, 142, rfl⟩
abbrev main_call3_v1 : Ref sig .tc := ⟨.hbm, 143, rfl⟩
abbrev main_v102 : Ref sig .tc := ⟨.hbm, 144, rfl⟩
abbrev main_c_24 : Ref sig .tc := ⟨.hbm, 145, rfl⟩
abbrev main_v103 : Ref sig .tc := ⟨.hbm, 146, rfl⟩
abbrev main_v104 : Ref sig .tc := ⟨.hbm, 147, rfl⟩
abbrev main_c_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_c_27 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_28 : Ref sig .tc := ⟨.hbm, 164, rfl⟩
abbrev main_v118 : Ref sig .tc := ⟨.hbm, 165, rfl⟩
abbrev main_v119 : Ref sig .tc := ⟨.hbm, 166, rfl⟩
abbrev main_c_29 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its two results read.

  Every weakly fair execution of the program from the launch memory terminates, nothing faulting, and leaves in every
  unscoped buffer what the fold of the program's segments leaves there (host stretches and the two pipelined regions, in
  order).  Read at the two result buffers this names the results; read at the argument buffers it says they are
  unchanged.
-/
import proofs.«118384_j22359599743561_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the fold's contents `W8` of their buffers, the arguments as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«118384_j22359599743561_1_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.RegionValue.lean ====
/-
  What the two pipelined regions leave in their output arrays, at the exact instance.

  The first region computes, for each of 20 blocks of 5000 rows, the product of that block of the left array
  ([100000, 256]) with the whole right array ([256, 128]) into a zero accumulator; the rounding of the operands to a
  narrower format is the identity on the extended reals.  Entry (p, q) of a block's product is the sum over k of
  (left at (p, k)) · (right at (k, q)), which is entry (5000·t + p, q) of the product of the whole arrays.  The blocks
  tile the rows, so after the last write-back the output array IS the product of the whole arrays — spelt below as the
  host's general product of the two arrays the region found.  The second region does the same twice with one left
  array ([100000, 128]) and two right arrays ([128, 64]), into two output arrays.
-/
import proofs.«118384_j22359599743561_1_alg».proof.Proof.Gen.KernelIdeal.Frame
import proofs.«118384_j22359599743561_1_alg».proof.Proof.LibMatmulRows
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/-! ## The whole products -/

/-- Rows by columns, contracting the left operand's second axis with the right operand's first: [100000, 256] · [256, 128]. -/
def dotX : DotDims S100000x256 S256x128 S100000x128 where
  lhsContracting := [1]
  rhsContracting := [0]
  lhsNonContracting := [0]
  rhsNonContracting := [1]
  lhsBatch := []
  rhsBatch := []
  wf := by decide

/-- The same for [100000, 128] · [128, 64]. -/
def dotH : DotDims S100000x128 S128x64 S100000x64 where
  lhsContracting := [1]
  rhsContracting := [0]
  lhsNonContracting := [0]
  rhsNonContracting := [1]
  lhsBatch := []
  rhsBatch := []
  wf := by decide

/-- The product of the whole arrays of the first region. -/
abbrev prodX (x : FVec Ideal S100000x256 .f32) (w : FVec Ideal S256x128 .f32) : FVec Ideal S100000x128 .f32 :=
  Host.dotGeneral (F := Ideal) dotX none x w

/-- The product of the whole arrays of the second region (one for each right operand). -/
abbrev prodH (h : FVec Ideal S100000x128 .f32) (w : FVec Ideal S128x64 .f32) : FVec Ideal S100000x64 .f32 :=
  Host.dotGeneral (F := Ideal) dotH none h w

theorem prodX_apply (x : FVec Ideal S100000x256 .f32) (w : FVec Ideal S256x128 .f32) (p : Fin 100000) (q : Fin 128) :
    prodX x w (ix2 p q) = ∑ k : Fin 256, x (ix2 p k) * w (ix2 k q) :=
  Cert.MatmulRows.dotGeneral_ix2 dotX rfl rfl rfl rfl rfl rfl none .single x w p q

theorem prodH_apply (h : FVec Ideal S100000x128 .f32) (w : FVec Ideal S128x64 .f32) (p : Fin 100000) (q : Fin 64) :
    prodH h w (ix2 p q) = ∑ k : Fin 128, h (ix2 p k) * w (ix2 k q) :=
  Cert.MatmulRows.dotGeneral_ix2 dotH rfl rfl rfl rfl rfl rfl none .single h w p q

/-! ## The bodies' payloads at an entry -/

theorem hz : (![0, 0] : Fin 2 → Nat) = fun _ => 0 := funext fun a => by fin_cases a <;> rfl

/-- The first body's stored value, entry (p, q): the block's row p against the right array's column q. -/
theorem pay0_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact Cert.MatmulRows.matmul_zero_ix2 dot_S5000x256_S256x128_S5000x128_1_0_0_1_n_n rfl rfl rfl rfl rfl rfl none _ _ p q

/-- The second body's shared left operand is the block it loaded. -/
theorem pay1_left (x0 : Vec Ideal S5000x128 .f32) : k1_pay1 (F := Ideal) x0 = x0 := by
  unfold k1_pay1
  exact shapeCast_self (s := S5000x128) x0 shapeCasts_S5000x128_S5000x128

/-- The second body's first stored value, entry (p, q). -/
theorem pay1a_apply (x0 : Vec Ideal S5000x128 .f32) (x1 : Vec Ideal S128x64 .f32) (p : Fin 5000) (q : Fin 64) :
    k1_pay2 (F := Ideal) x0 x1 (ix2 p q) = ∑ k : Fin 128, x0 (ix2 p k) * x1 (ix2 k q) := by
  unfold k1_pay2
  rw [pay1_left]
  exact Cert.MatmulRows.matmul_zero_ix2 dot_S5000x128_S128x64_S5000x64_1_0_0_1_n_n rfl rfl rfl rfl rfl rfl none _ _ p q

/-- The second body's second stored value, entry (p, q). -/
theorem pay1b_apply (x0 : Vec Ideal S5000x128 .f32) (x2 : Vec Ideal S128x64 .f32) (p : Fin 5000) (q : Fin 64) :
    k1_pay3 (F := Ideal) x0 x2 (ix2 p q) = ∑ k : Fin 128, x0 (ix2 p k) * x2 (ix2 k q) := by
  unfold k1_pay3
  rw [pay1_left]
  exact Cert.MatmulRows.matmul_zero_ix2 dot_S5000x128_S128x64_S5000x64_1_0_0_1_n_n rfl rfl rfl rfl rfl rfl none _ _ p q

end Cert.KernelIdeal.RegionValue

end
-- ==== Proof.RegionArrays.lean ====
/-
  From blocks to arrays: each output array of the two regions after the last write-back.

  A window's block at grid point t is rows 5000·t … 5000·t + 4999 of its array (all columns); the weight windows' one
  block is the whole array.  So what point t writes back — the body's product of the blocks it loaded — is, entry by
  entry, block t of the product of the whole arrays (RegionValue: the two sums over the shared coordinate have the
  same terms).  Every row lies in exactly the block of the point (row / 5000), so the twenty write-backs cover the
  output array, which therefore ends as the product of the whole arrays the region found on entry.
-/
import proofs.«118384_j22359599743561_1_alg».proof.Proof.RegionValue

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

-- the buffer contents a region is entered with
variable (V : (c : Dev nD) → (b : Ref sig .tc) → Buf (Elt Ideal) ((c : Thread nD τ).loc b))

/-! ## The first region -/

/-- The printed index maps over the grid: the row windows' block index is the point, every other block index is 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the left array. -/
theorem left0_apply (c : Dev nD) (t : Fin cfg0.N) (p : Fin 5000) (k : Fin 256) (P : Fin 100000) (hP : P.val = t.val * 5000 + p.val) :
    iblk0 V c 0 t (ix2 p k) = (V c main_arg0 : S100000x256.Idx → EReal) (ix2 P k) := by
  show V c main_arg0 (((cfg0.win 0).blk t).view.emb (ix2 p k)) = V c main_arg0 (ix2 P k)
  refine congrArg (V c main_arg0) ?_
  obtain ⟨e0, e1, -⟩ := idx0 t
  funext a; apply Fin.ext
  match a with
  | ⟨0, _⟩ => show win0_0.index t (0 : Fin 2) * 5000 + 1 * p.val = P.val; omega
  | ⟨1, _⟩ => show win0_0.index t (1 : Fin 2) * 256 + 1 * k.val = k.val; omega

/-- The right window's block at every point is the right array. -/
theorem right0_apply (c : Dev nD) (t : Fin cfg0.N) (k : Fin 256) (q : Fin 128) :
    iblk0 V c 1 t (ix2 k q) = (V c main_arg2 : S256x128.Idx → EReal) (ix2 k q) := by
  show V c main_arg2 (((cfg0.win 1).blk t).view.emb (ix2 k q)) = V c main_arg2 (ix2 k q)
  refine congrArg (V c main_arg2) ?_
  obtain ⟨-, -, e2, e3, -⟩ := idx0 t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- The output window's block at point t sits at rows 5000·t … of the output array. -/
theorem out0_emb (t : Fin cfg0.N) (p : Fin 5000) (q : Fin 128) (P : Fin 100000) (hP : P.val = t.val * 5000 + p.val) :
    ((cfg0.win 2).blk t).view.emb (ix2 p q) = (ix2 P q : S100000x128.Idx) := by
  obtain ⟨-, -, -, -, e4, e5⟩ := idx0 t
  funext a; apply Fin.ext
  match a with
  | ⟨0, _⟩ => show win0_2.index t (0 : Fin 2) * 5000 + 1 * p.val = P.val; omega
  | ⟨1, _⟩ => show win0_2.index t (1 : Fin 2) * 128 + 1 * q.val = q.val; omega

/-- What point t writes back is block t of the whole product. -/
theorem flushed0 (c : Dev nD) (t : Fin cfg0.N) :
    (dat0 V c).flushed 2 t = ((cfg0.win 2).blk t).view.read (Elt Ideal) (prodX (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext y
  obtain ⟨p, q, rfl⟩ : ∃ (p : Fin 5000) (q : Fin 128), y = ix2 p q := ⟨y 0, y 1, eq_ix2 y⟩
  have ht : t.val < 20 := Nat.lt_of_lt_of_eq t.isLt N_0
  have hP : t.val * 5000 + p.val < 100000 := by have := p.isLt; omega
  show k0_pay1 (iblk0 V c 0 t) (iblk0 V c 1 t) (ix2 p q)
    = prodX (V c main_arg0) (V c main_arg2) (((cfg0.win 2).blk t).view.emb (ix2 p q))
  rw [out0_emb t p q ⟨_, hP⟩ rfl]
  refine (pay0_apply (iblk0 V c 0 t) (iblk0 V c 1 t) p q).trans ?_
  refine Eq.trans ?_ (prodX_apply (V c main_arg0) (V c main_arg2) ⟨_, hP⟩ q).symm
  exact Finset.sum_congr rfl fun k _ => by rw [left0_apply V c t p k ⟨_, hP⟩ rfl, right0_apply V c t k q]

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The first region's output array ends as the product of the arrays it found. -/
theorem final0 (c : Dev nD) : (dat0 V c).arrAt 2 cfg0.N = prodX (V c main_arg0) (V c main_arg2) :=
  (dat0 V c).arrAt_eq_of_cover 2 _ (fun t _ => flushed0 V c t) fun i => by
    have h0 : (i 0).val < 100000 := (i 0).isLt
    have h1 : (i 1).val < 128 := (i 1).isLt
    obtain ⟨-, -, -, -, e4, e5⟩ := idx0 ⟨(i 0).val / 5000, by rw [show cfg0.N = 20 from N_0]; omega⟩
    refine ⟨⟨(i 0).val / 5000, by rw [show cfg0.N = 20 from N_0]; omega⟩, flush0_2 _, ?_⟩
    rw [mem_blk0]
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end Cert.KernelIdeal.RegionValue

end
-- ==== Proof.RegionArrays1.lean ====
/-
  From blocks to arrays, second region: its two output arrays after the last write-back.

  As in the first region, the left window's block at grid point t is rows 5000·t … 5000·t + 4999 of the left array and
  each right window's one block is its whole array; each output window's block at t is the same rows of its output
  array.  So each output array ends as the product of the left array with the corresponding right array.
-/
import proofs.«118384_j22359599743561_1_alg».proof.Proof.RegionValue

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

/-- The printed index maps over the grid: the row windows' block index is the point, every other block index is 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The left window's block at point t is rows 5000·t … of the left array. -/
theorem left1_apply (c : Dev nD) (t : Fin cfg1.N) (p : Fin 5000) (k : Fin 128) (P : Fin 100000) (hP : P.val = t.val * 5000 + p.val) :
    iblk1 V c 0 t (ix2 p k) = (V c main_v47 : S100000x128.Idx → EReal) (ix2 P k) := by
  show V c main_v47 (((cfg1.win 0).blk t).view.emb (ix2 p k)) = V c main_v47 (ix2 P k)
  refine congrArg (V c main_v47) ?_
  obtain ⟨e0, e1, -⟩ := idx1 t
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

/-- The first right window's block at every point is its array. -/
theorem right1a_apply (c : Dev nD) (t : Fin cfg1.N) (k : Fin 128) (q : Fin 64) :
    iblk1 V c 1 t (ix2 k q) = (V c main_arg4 : S128x64.Idx → EReal) (ix2 k q) := by
  show V c main_arg4 (((cfg1.win 1).blk t).view.emb (ix2 k q)) = V c main_arg4 (ix2 k q)
  refine congrArg (V c main_arg4) ?_
  obtain ⟨-, -, e2, e3, -⟩ := idx1 t
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- The second right window's block at every point is its array. -/
theorem right1b_apply (c : Dev nD) (t : Fin cfg1.N) (k : Fin 128) (q : Fin 64) :
    iblk1 V c 2 t (ix2 k q) = (V c main_arg6 : S128x64.Idx → EReal) (ix2 k q) := by
  show V c main_arg6 (((cfg1.win 2).blk t).view.emb (ix2 k q)) = V c main_arg6 (ix2 k q)
  refine congrArg (V c main_arg6) ?_
  obtain ⟨-, -, -, -, e4, e5, -⟩ := idx1 t
  funext a; apply Fin.ext
  match a with
  | ⟨0, _⟩ => show win1_2.index t (0 : Fin 2) * 128 + 1 * k.val = k.val; omega
  | ⟨1, _⟩ => show win1_2.index t (1 : Fin 2) * 64 + 1 * q.val = q.val; omega

/-- The output windows' blocks at point t sit at rows 5000·t … of their arrays. -/
theorem out1a_emb (t : Fin cfg1.N) (p : Fin 5000) (q : Fin 64) (P : Fin 100000) (hP : P.val = t.val * 5000 + p.val) :
    ((cfg1.win 3).blk t).view.emb (ix2 p q) = (ix2 P q : S100000x64.Idx) := by
  obtain ⟨-, -, -, -, -, -, e6, e7, -⟩ := idx1 t
  funext a; apply Fin.ext
  match a with
  | ⟨0, _⟩ => show win1_3.index t (0 : Fin 2) * 5000 + 1 * p.val = P.val; omega
  | ⟨1, _⟩ => show win1_3.index t (1 : Fin 2) * 64 + 1 * q.val = q.val; omega
theorem out1b_emb (t : Fin cfg1.N) (p : Fin 5000) (q : Fin 64) (P : Fin 100000) (hP : P.val = t.val * 5000 + p.val) :
    ((cfg1.win 4).blk t).view.emb (ix2 p q) = (ix2 P q : S100000x64.Idx) := by
  obtain ⟨-, -, -, -, -, -, -, -, e8, e9⟩ := idx1 t
  funext a; apply Fin.ext
  match a with
  | ⟨0, _⟩ => show win1_4.index t (0 : Fin 2) * 5000 + 1 * p.val = P.val; omega
  | ⟨1, _⟩ => show win1_4.index t (1 : Fin 2) * 64 + 1 * q.val = q.val; omega

/-- What point t writes back through the first output window is block t of the first whole product. -/
theorem flushed1a (c : Dev nD) (t : Fin cfg1.N) :
    (dat1 V c).flushed 3 t = ((cfg1.win 3).blk t).view.read (Elt Ideal) (prodH (V c main_v47) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz]
  funext y
  obtain ⟨p, q, rfl⟩ : ∃ (p : Fin 5000) (q : Fin 64), y = ix2 p q := ⟨y 0, y 1, eq_ix2 y⟩
  have ht : t.val < 20 := Nat.lt_of_lt_of_eq t.isLt N_1
  have hP : t.val * 5000 + p.val < 100000 := by have := p.isLt; omega
  show k1_pay2 (iblk1 V c 0 t) (iblk1 V c 1 t) (ix2 p q)
    = prodH (V c main_v47) (V c main_arg4) (((cfg1.win 3).blk t).view.emb (ix2 p q))
  rw [out1a_emb t p q ⟨_, hP⟩ rfl]
  refine (pay1a_apply (iblk1 V c 0 t) (iblk1 V c 1 t) p q).trans ?_
  refine Eq.trans ?_ (prodH_apply (V c main_v47) (V c main_arg4) ⟨_, hP⟩ q).symm
  exact Finset.sum_congr rfl fun k _ => by rw [left1_apply V c t p k ⟨_, hP⟩ rfl, right1a_apply V c t k q]

/-- What point t writes back through the second output window is block t of the second whole product. -/
theorem flushed1b (c : Dev nD) (t : Fin cfg1.N) :
    (dat1 V c).flushed 4 t = ((cfg1.win 4).blk t).view.read (Elt Ideal) (prodH (V c main_v47) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x64) hz]
  funext y
  obtain ⟨p, q, rfl⟩ : ∃ (p : Fin 5000) (q : Fin 64), y = ix2 p q := ⟨y 0, y 1, eq_ix2 y⟩
  have ht : t.val < 20 := Nat.lt_of_lt_of_eq t.isLt N_1
  have hP : t.val * 5000 + p.val < 100000 := by have := p.isLt; omega
  show k1_pay3 (iblk1 V c 0 t) (iblk1 V c 2 t) (ix2 p q)
    = prodH (V c main_v47) (V c main_arg6) (((cfg1.win 4).blk t).view.emb (ix2 p q))
  rw [out1b_emb t p q ⟨_, hP⟩ rfl]
  refine (pay1b_apply (iblk1 V c 0 t) (iblk1 V c 2 t) p q).trans ?_
  refine Eq.trans ?_ (prodH_apply (V c main_v47) (V c main_arg6) ⟨_, hP⟩ q).symm
  exact Finset.sum_congr rfl fun k _ => by rw [left1_apply V c t p k ⟨_, hP⟩ rfl, right1b_apply V c t k q]

/-- An index of an output array is in point t's block iff each coordinate is in the block's range on its axis. -/
theorem mem_blk1a (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v48_0).slice (win1_3.rect t)).set ↔ _
  rw [View.set_slice_whole, Rect.mem_set_unit]
  exact Iff.rfl
theorem mem_blk1b (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v48_1).slice (win1_4.rect t)).set ↔ _
  rw [View.set_slice_whole, Rect.mem_set_unit]
  exact Iff.rfl

/-- The second region's first output array ends as the product of the left array with the first right array. -/
theorem final1a (c : Dev nD) : (dat1 V c).arrAt 3 cfg1.N = prodH (V c main_v47) (V c main_arg4) :=
  (dat1 V c).arrAt_eq_of_cover 3 _ (fun t _ => flushed1a V c t) fun i => by
    have h0 : (i 0).val < 100000 := (i 0).isLt
    have h1 : (i 1).val < 64 := (i 1).isLt
    obtain ⟨-, -, -, -, -, -, e6, e7, -⟩ := idx1 ⟨(i 0).val / 5000, by rw [show cfg1.N = 20 from N_1]; omega⟩
    refine ⟨⟨(i 0).val / 5000, by rw [show cfg1.N = 20 from N_1]; omega⟩, flush1_3 _, ?_⟩
    rw [mem_blk1a]
    intro a
    match a with
    | ⟨0, _⟩ =>
      show win1_3.index _ (0 : Fin 2) * 5000 ≤ (i 0).val ∧ (i 0).val < win1_3.index _ (0 : Fin 2) * 5000 + 5000
      rw [e6]; show (i 0).val / 5000 * 5000 ≤ (i 0).val ∧ (i 0).val < (i 0).val / 5000 * 5000 + 5000; omega
    | ⟨1, _⟩ =>
      show win1_3.index _ (1 : Fin 2) * 64 ≤ (i 1).val ∧ (i 1).val < win1_3.index _ (1 : Fin 2) * 64 + 64
      rw [e7]; omega

/-- The second region's second output array ends as the product of the left array with the second right array. -/
theorem final1b (c : Dev nD) : (dat1 V c).arrAt 4 cfg1.N = prodH (V c main_v47) (V c main_arg6) :=
  (dat1 V c).arrAt_eq_of_cover 4 _ (fun t _ => flushed1b V c t) fun i => by
    have h0 : (i 0).val < 100000 := (i 0).isLt
    have h1 : (i 1).val < 64 := (i 1).isLt
    obtain ⟨-, -, -, -, -, -, -, -, e8, e9⟩ := idx1 ⟨(i 0).val / 5000, by rw [show cfg1.N = 20 from N_1]; omega⟩
    refine ⟨⟨(i 0).val / 5000, by rw [show cfg1.N = 20 from N_1]; omega⟩, flush1_4 _, ?_⟩
    rw [mem_blk1b]
    intro a
    match a with
    | ⟨0, _⟩ =>
      show win1_4.index _ (0 : Fin 2) * 5000 ≤ (i 0).val ∧ (i 0).val < win1_4.index _ (0 : Fin 2) * 5000 + 5000
      rw [e8]; show (i 0).val / 5000 * 5000 ≤ (i 0).val ∧ (i 0).val < (i 0).val / 5000 * 5000 + 5000; omega
    | ⟨1, _⟩ =>
      show win1_4.index _ (1 : Fin 2) * 64 ≤ (i 1).val ∧ (i 1).val < win1_4.index _ (1 : Fin 2) * 64 + 64
      rw [e9]; omega

end Cert.KernelIdeal.RegionValue

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibRegionOps.lean ====
/-
  A pipelined region with several output arrays as a short line of pure operations.

  A program that alternates stretches of host operations with pipelined regions leaves, at each boundary, the buffer
  contents obtained by folding its segments over the launch contents.  A region replaces its arrays by what its
  write-backs leave and touches nothing else.  If a list of operations writes exactly the region's output arrays, each
  output array ends at what the list leaves there, and every other array of the region ends as the region found it, then
  the region rewrites the contents exactly as that list does.  With one such list per region the whole program is one
  line of operations, and what a buffer holds at the end is a computation over that line.
-/
import Idealize.ShloMosaic.Lib.Pipeline.FrameSuffix
import Idealize.ShloMosaic.Lib.StableHlo.Run

noncomputable section

namespace Cert.RegionOps

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output arrays (those in `outs`) end at what the line `ops` leaves there, whose other arrays end as
    the region found them, while `ops` writes output arrays only, leaves what `ops` leaves. -/
theorem withArrays_eq_after {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (ops : List (HloOp τ sig Val)) (outs : Finset (Fin W))
    (hw : ∀ op ∈ ops, ∀ b ∈ op.writes, ∃ w ∈ outs, b = Proc.devRef .tc (Pipeline.arrRef win w))
    (hout : ∀ w ∈ outs, A w = after ops V (Proc.devRef .tc (Pipeline.arrRef win w)))
    (hin : ∀ w, w ∉ outs → A w = V (Proc.devRef .tc (Pipeline.arrRef win w))) :
    Pipeline.withArrays win c V A = after ops V := by
  funext b
  by_cases h : ∃ w, Proc.devRef .tc (Pipeline.arrRef win w) = b
  · obtain ⟨w, rfl⟩ := h
    rw [Pipeline.withArrays_arr win hinj]
    by_cases hwo : w ∈ outs
    · exact hout w hwo
    · rw [hin w hwo, after_of_forall_not_mem ops V fun op hop hb => by
        obtain ⟨w', hw', e⟩ := hw op hop _ hb
        exact hwo ((hinj (Proc.devRef_injective _ e)) ▸ hw')]
  · rw [after_of_forall_not_mem ops V fun op hop hb => by
      obtain ⟨w', _, e⟩ := hw op hop _ hb
      exact h ⟨w', e.symm⟩]
    unfold Pipeline.withArrays
    rw [dif_neg h]

end Cert.RegionOps

end
-- ==== Proof.Fold.lean ====
/-
  The two regions as host operations of the program's line.

  Between the launch and the return the buffer contents are a fold of the program's segments: a stretch of host
  operations rewrites each result buffer with its operation's function of its operands, and a region replaces its
  arrays by what its write-backs leave.  The first region leaves its two input arrays as it found them and its output
  array at the product of the two (RegionArrays), which is exactly what ONE host operation — the general product of the
  two input buffers into the output buffer — would leave.  The second region likewise is a line of two such operations,
  one per output array.  With that the contents at the return are a fold of host operations only.
-/
import proofs.«118384_j22359599743561_1_alg».proof.Proof.RegionArrays
import proofs.«118384_j22359599743561_1_alg».proof.Proof.RegionArrays1
import proofs.«118384_j22359599743561_1_alg».proof.Proof.LibRegionOp
import proofs.«118384_j22359599743561_1_alg».proof.Proof.LibRegionOps

set_option maxRecDepth 16384

noncomputable section

namespace Cert.KernelIdeal.Fold

open Cert.KernelIdeal Cert.KernelIdeal.Gen Cert.KernelIdeal.RegionValue
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first region as an operation: the product of the two input buffers into the output buffer. -/
abbrev op0 : HloOp τ sig (Elt Ideal) :=
  binary main_arg0 main_arg2 main_v30 ((fun l r => Host.dotGeneral (F := Ideal) (φ₁ := .f32) (φ₂ := .f32) dotX none l r) : (⟨S100000x256, .f32⟩ : BufTy).Contents (Elt Ideal) → (⟨S256x128, .f32⟩ : BufTy).Contents (Elt Ideal) → (⟨S100000x128, .f32⟩ : BufTy).Contents (Elt Ideal))

/-- The second region as two operations: the shared left buffer against each right buffer. -/
abbrev op1a : HloOp τ sig (Elt Ideal) :=
  binary main_v47 main_arg4 main_v48_0 ((fun l r => Host.dotGeneral (F := Ideal) (φ₁ := .f32) (φ₂ := .f32) dotH none l r) : (⟨S100000x128, .f32⟩ : BufTy).Contents (Elt Ideal) → (⟨S128x64, .f32⟩ : BufTy).Contents (Elt Ideal) → (⟨S100000x64, .f32⟩ : BufTy).Contents (Elt Ideal))
abbrev op1b : HloOp τ sig (Elt Ideal) :=
  binary main_v47 main_arg6 main_v48_1 ((fun l r => Host.dotGeneral (F := Ideal) (φ₁ := .f32) (φ₂ := .f32) dotH none l r) : (⟨S100000x128, .f32⟩ : BufTy).Contents (Elt Ideal) → (⟨S128x64, .f32⟩ : BufTy).Contents (Elt Ideal) → (⟨S100000x64, .f32⟩ : BufTy).Contents (Elt Ideal))

/-- What the second region's two operations leave in the two output buffers, over any contents. -/
theorem after_ops1_a (Vv : Valuation τ sig (Elt Ideal)) :
    after [op1a, op1b] Vv (Proc.devRef .tc main_v48_0) = prodH (Vv (Proc.devRef .tc main_v47)) (Vv (Proc.devRef .tc main_arg4)) := by
  after_results
theorem after_ops1_b (Vv : Valuation τ sig (Elt Ideal)) :
    after [op1a, op1b] Vv (Proc.devRef .tc main_v48_1) = prodH (Vv (Proc.devRef .tc main_v47)) (Vv (Proc.devRef .tc main_arg6)) := by
  after_results

/-- The first region over any entry contents: its arrays replaced by what its write-backs leave is what the one
    operation leaves. -/
theorem region0_eq (V : (c : Dev nD) → (b : Ref sig .tc) → Buf (Elt Ideal) ((c : Thread nD τ).loc b))
    (Vv : Valuation τ sig (Elt Ideal)) (c : Dev nD) (hV : ∀ b : Ref sig .tc, V c b = Vv (Proc.devRef .tc b)) :
    Pipeline.withArrays spec0 c Vv (fun w => (dat0 V c).arrAt w cfg0.N) = after [op0] Vv := by
  show _ = op0.result Vv
  refine Cert.RegionOp.withArrays_eq_result spec0 launch0.win.arr_inj c Vv _ op0 2 (binary_writes ..) ?_ ?_
  · refine (final0 V c).trans ?_
    rw [hV main_arg0, hV main_arg2]
    exact (binary_result main_arg0 main_arg2 main_v30 _ _ _ _ Vv).symm
  · intro w hw
    match w with
    | ⟨0, _⟩ => exact (((dat0 V c).arrAt_in 0 rfl _).trans (A_eq0 V c 0)).trans (hV main_arg0)
    | ⟨1, _⟩ => exact (((dat0 V c).arrAt_in 1 rfl _).trans (A_eq0 V c 1)).trans (hV main_arg2)
    | ⟨2, _⟩ => exact absurd rfl hw

set_option maxHeartbeats 2000000 in
/-- The second region over any entry contents: what the two operations leave. -/
theorem region1_eq (V : (c : Dev nD) → (b : Ref sig .tc) → Buf (Elt Ideal) ((c : Thread nD τ).loc b))
    (Vv : Valuation τ sig (Elt Ideal)) (c : Dev nD) (hV : ∀ b : Ref sig .tc, V c b = Vv (Proc.devRef .tc b)) :
    Pipeline.withArrays spec1 c Vv (fun w => (dat1 V c).arrAt w cfg1.N) = after [op1a, op1b] Vv := by
  refine Cert.RegionOps.withArrays_eq_after spec1 launch1.win.arr_inj c Vv _ [op1a, op1b] {3, 4} ?_ ?_ ?_
  · intro op hop b hb
    rcases List.mem_cons.mp hop with rfl | hop
    · exact ⟨3, by decide, Finset.mem_singleton.mp ((binary_writes ..) ▸ hb)⟩
    · rcases List.mem_singleton.mp hop with rfl
      exact ⟨4, by decide, Finset.mem_singleton.mp ((binary_writes ..) ▸ hb)⟩
  · intro w hw
    rcases Finset.mem_insert.mp hw with rfl | hw'
    · refine (final1a V c).trans ?_
      rw [hV main_v47, hV main_arg4]
      exact (after_ops1_a Vv).symm
    · rcases Finset.mem_singleton.mp hw' with rfl
      refine (final1b V c).trans ?_
      rw [hV main_v47, hV main_arg6]
      exact (after_ops1_b Vv).symm
  · intro w hw
    match w, hw with
    | 0, _ => exact (((dat1 V c).arrAt_in 0 rfl _).trans (A_eq1 V c 0)).trans (hV main_v47)
    | 1, _ => exact (((dat1 V c).arrAt_in 1 rfl _).trans (A_eq1 V c 1)).trans (hV main_arg4)
    | 2, _ => exact (((dat1 V c).arrAt_in 2 rfl _).trans (A_eq1 V c 2)).trans (hV main_arg6)
    | 3, hw => exact absurd (by decide) hw
    | 4, hw => exact absurd (by decide) hw
    | ⟨_ + 5, h⟩, _ => exact absurd h (Nat.not_lt.2 (Nat.le_add_left _ _))

/-- At the first region's exit the contents are what the one operation leaves of the entry contents. -/
theorem W4_eq (c : Dev nD) : W4 m ρ c = after [op0] (W3 m ρ c) :=
  region0_eq (V3 m ρ) (W3 m ρ c) c fun _ => rfl

/-- At the second region's exit the contents are what the two operations leave of the entry contents. -/
theorem W7_eq (c : Dev nD) : W7 m ρ c = after [op1a, op1b] (W6 m ρ c) :=
  region1_eq (V6 m ρ) (W6 m ρ c) c fun _ => rfl

end Cert.KernelIdeal.Fold

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.Bridge.lean ====
/-
  The two programs' results are one function of the arguments.

  With the two regions read as host operations (Fold), what the idealized kernel leaves in a result buffer is the fold
  of a line of host operations over the launch contents, that is, a composed term of the argument arrays.  The
  reference's result is such a term too (its run).  The two terms are the same operations in the same arrangement: the
  edge lists with the self loops appended, the degrees by scatter-add of ones, their reciprocal square roots where the
  degree is positive, the per-edge coefficient as the product of the two gathered values, and per layer the gather of
  the transformed features along the sources, the scaling, the scatter-add to the targets and the bias — the reference
  merely recomputes the coefficient once per layer, and where the kernel launches a region the reference has the general
  product that the region was shown to compute.  From memories that agree on the arguments the two terms are therefore
  equal.
-/
import proofs.«118384_j22359599743561_1_alg».proof.Proof.Fold
import proofs.«118384_j22359599743561_1_alg».proof.Proof.RefRun
import proofs.«118384_j22359599743561_1_alg».proof.Proof.LibTypedRef

set_option maxRecDepth 16384

noncomputable section

namespace Cert.Bridge

open Idealize.ShloMosaic Idealize.ShloMosaic.TcCoe Idealize.SL.Sem Idealize.ShloMosaic.StableHlo

/-! ## Typed references of the kernel program whose transports are the identity

The two outlined functions (the masked reciprocal square root and the rectifier) address their buffers through typed
references; contents pass to the buffer's type and back along an equation between two types that are the same type,
so each transport is the identity. -/

section Transports

theorem to_v14 (h1 h2 h3) (v : (⟨Cert.KernelIdeal.S100000, .f32⟩ : BufTy).Contents (Elt Ideal)) :
    (TRef.of (sig := Cert.KernelIdeal.sig) (T := ⟨Cert.KernelIdeal.S100000, .f32⟩) Cert.KernelIdeal.main_v14 h1 h2 h3).toBuf v = v := rfl
theorem to_v47 (h1 h2 h3) (v : (⟨Cert.KernelIdeal.S100000x128, .f32⟩ : BufTy).Contents (Elt Ideal)) :
    (TRef.of (sig := Cert.KernelIdeal.sig) (T := ⟨Cert.KernelIdeal.S100000x128, .f32⟩) Cert.KernelIdeal.main_v47 h1 h2 h3).toBuf v = v := rfl
theorem of_v12 (h1 h2 h3) (v : (⟨Cert.KernelIdeal.S100000, .i1⟩ : BufTy).Contents (Elt Ideal)) :
    (TRef.of (sig := Cert.KernelIdeal.sig) (T := ⟨Cert.KernelIdeal.S100000, .i1⟩) Cert.KernelIdeal.main_v12 h1 h2 h3).ofBuf v = v := rfl
theorem of_v13 (h1 h2 h3) (v : (⟨Cert.KernelIdeal.S100000, .f32⟩ : BufTy).Contents (Elt Ideal)) :
    (TRef.of (sig := Cert.KernelIdeal.sig) (T := ⟨Cert.KernelIdeal.S100000, .f32⟩) Cert.KernelIdeal.main_v13 h1 h2 h3).ofBuf v = v := rfl
theorem of_cst2 (h1 h2 h3) (v : (⟨Cert.KernelIdeal.S_, .f32⟩ : BufTy).Contents (Elt Ideal)) :
    (TRef.of (sig := Cert.KernelIdeal.sig) (T := ⟨Cert.KernelIdeal.S_, .f32⟩) Cert.KernelIdeal.main_cst_2 h1 h2 h3).ofBuf v = v := rfl
theorem of_v46 (h1 h2 h3) (v : (⟨Cert.KernelIdeal.S100000x128, .f32⟩ : BufTy).Contents (Elt Ideal)) :
    (TRef.of (sig := Cert.KernelIdeal.sig) (T := ⟨Cert.KernelIdeal.S100000x128, .f32⟩) Cert.KernelIdeal.main_v46 h1 h2 h3).ofBuf v = v := rfl

end Transports

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
/-- The first result. -/
theorem result0 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W8 (F := Ideal) m ρ c (Proc.devRef .tc Cert.KernelIdeal.main_v64) = Cert.ReferenceIdeal.ValueP.res_main_v90 (F := Ideal) m' c := by
  dsimp only [Cert.KernelIdeal.Gen.W8]
  rw [Cert.KernelIdeal.Fold.W7_eq m ρ c]
  dsimp only [Cert.KernelIdeal.Gen.W6, Cert.KernelIdeal.Gen.W5]
  rw [Cert.KernelIdeal.Fold.W4_eq m ρ c]
  dsimp only [Cert.KernelIdeal.Gen.W3, Cert.KernelIdeal.Gen.W2, Cert.KernelIdeal.Gen.W1]
  after_results_simp
  -- the buffers read inside a concatenation's operand list: each operation's result at its own buffer, the others' passed over
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  simp only [Cert.TypedRef.ofBuf_toBuf, to_v14, to_v47, of_v12, of_v13, of_cst2, of_v46]
  unfold Cert.ReferenceIdeal.ValueP.res_main_v90
  rw [h0, h1, h2, h3, h4, h5]
  rfl

set_option maxHeartbeats 4000000 in
/-- The second result. -/
theorem result1 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W8 (F := Ideal) m ρ c (Proc.devRef .tc Cert.KernelIdeal.main_v80) = Cert.ReferenceIdeal.ValueP.res_main_v133 (F := Ideal) m' c := by
  dsimp only [Cert.KernelIdeal.Gen.W8]
  rw [Cert.KernelIdeal.Fold.W7_eq m ρ c]
  dsimp only [Cert.KernelIdeal.Gen.W6, Cert.KernelIdeal.Gen.W5]
  rw [Cert.KernelIdeal.Fold.W4_eq m ρ c]
  dsimp only [Cert.KernelIdeal.Gen.W3, Cert.KernelIdeal.Gen.W2, Cert.KernelIdeal.Gen.W1]
  after_results_simp
  -- the buffers read inside a concatenation's operand list: each operation's result at its own buffer, the others' passed over
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  simp only [Cert.TypedRef.ofBuf_toBuf, to_v14, to_v47, of_v12, of_v13, of_cst2, of_v46]
  unfold Cert.ReferenceIdeal.ValueP.res_main_v133
  rw [h0, h1, h2, h3, h6, h7]
  rfl

end Cert.Bridge

end
-- ==== Proof.lean ====
/-
  The claims of this certificate, assembled.

  Kernel and reference compute a two-layer graph convolution encoder: h = relu(Â·(x·W1) + b1), then the two heads
  Â·(h·Wmu) + bmu and Â·(h·Wlv) + blv, where Â scatters to each target node the source rows scaled by
  deg(source)^(-1/2) · deg(target)^(-1/2) over the edge list with self loops appended.  The kernel computes the three
  dense products in two pipelined regions, a block of 5000 rows at a time, with operands rounded to a narrower float
  format on the way in, and everything else on the host; the reference computes everything on the host.  On the extended
  reals the rounding is the identity and a block-wise product into a zero accumulator has the entries of the whole
  product, so each region leaves what the host's general product would (RegionArrays, RegionArrays1, Fold); all other
  operations are literally the same in both programs, and the results are equal as composed terms of the arguments
  (Bridge).  No algebraic law beyond that is used, and the precondition is not needed.

  The frames of the two kernel programs are the generated ones; the reference's frame is its run with the results
  dropped; the idealization rewrote nothing, so `preserves` is trivial.
-/
import proofs.«118384_j22359599743561_1_alg».proof.Defs
import proofs.«118384_j22359599743561_1_alg».proof.Proof.Gen.Kernel
import proofs.«118384_j22359599743561_1_alg».proof.Proof.Gen.Kernel.Frame
import proofs.«118384_j22359599743561_1_alg».proof.Proof.Gen.KernelIdeal
import proofs.«118384_j22359599743561_1_alg».proof.Proof.Gen.KernelIdeal.Frame
import proofs.«118384_j22359599743561_1_alg».proof.Proof.Gen.ReferenceIdeal
import proofs.«118384_j22359599743561_1_alg».proof.Proof.Gen.Pre_finite_inputs
import proofs.«118384_j22359599743561_1_alg».proof.Proof.KernelRun
import proofs.«118384_j22359599743561_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs run, and from memories agreeing on the arguments each result buffer of the reference ends at what
    the kernel's ends at. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v64),
    fun c => Cert.KernelIdeal.Gen.W8 (F := Ideal) m ρ c (Proc.devRef .tc Cert.KernelIdeal.main_v80),
    Cert.KernelIdeal.Run.run (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · exact (Cert.Bridge.result0 m ρ m' c (hagree c).1 (hagree c).2.1 (hagree c).2.2.1 (hagree c).2.2.2.1 (hagree c).2.2.2.2.1
      (hagree c).2.2.2.2.2.1 (hagree c).2.2.2.2.2.2.1 (hagree c).2.2.2.2.2.2.2).symm
  · exact (Cert.Bridge.result1 m ρ m' c (hagree c).1 (hagree c).2.1 (hagree c).2.2.1 (hagree c).2.2.2.1 (hagree c).2.2.2.2.1
      (hagree c).2.2.2.2.2.1 (hagree c).2.2.2.2.2.2.1 (hagree c).2.2.2.2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
